-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S32768x1024 .f32) (main_arg1 : FVec F S8x1024x4096 .f32) (main_arg2 : FVec F S8x4096x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x4096x1024, .f32⟩
  | .hbm, ⟨4, _⟩ => ⟨S8x4096x1024, .bf16⟩
  | .hbm, ⟨5, _⟩ => ⟨S8x1024x4096, .bf16⟩
  | .hbm, ⟨6, _⟩ => ⟨S8x4096x1024, .bf16⟩
  | .hbm, ⟨7, _⟩ => ⟨S8x4096x1024, .f32⟩
  | .hbm, ⟨8, _⟩ => ⟨S32768x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S8x4096x1024_S32768x1024 : S8x4096x1024.ShapeCasts S32768x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .bf16 = 32 ∨ (Rect.block (s := S8x4096x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .bf16 = 32 ∨ (Rect.block (s := S8x4096x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x4096x1024, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x1024, .f32⟩
  | .hbm, ⟨9, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Spec.lean ====
/-
  The expert feed-forward layer as one function of its three arrays, over the extended reals.

  Tokens are grouped by expert: `X (e, t, k)` is feature `k` of token `t` of expert `e`; `WI (e, k, f)` and `WO (e, f, d)`
  are the expert's two weights. The hidden activation is the positive part of the first product,
      hidden (e, t, f) = max (∑ k, X (e, t, k) · WI (e, k, f)) z,
  and the layer's value is the second product,
      ffn (e, t, d) = ∑ f < 4096, hidden (e, t, f) · WO (e, f, d).
  The 4096 hidden features are taken in four slabs of 1024: `part … b` is the contribution of slab `b`, and the layer's
  value is the sum of the four contributions — a regrouping of one finite sum, which uses only that addition is
  associative and commutative, so it holds with infinite terms too.

  A schedule of 128 steps visits (expert, token tile, slab) in row-major order, 8 × 4 × 4; at step `n` an accumulator is
  reset when the slab is the first and otherwise keeps what the step before left, then receives the slab's contribution.
  `accAt n` is what the accumulator holds after step `n`; after a last slab it is the layer's value on the step's tile.
-/
import Idealize.ShloMosaic.Lib.ValueIdx
import Idealize.ShloMosaic.PureOps.Ideal
import Mathlib.Algebra.BigOperators.Fin

noncomputable section

namespace Cert.Ffn

open Idealize.ShloMosaic Idealize.ShloMosaic.ValueIdx
open scoped BigOperators

/-- Tokens grouped by expert, and the second weight: 8 × 4096 × 1024. -/
abbrev SA : Shape := ⟨3, ![8, 4096, 1024]⟩
/-- The first weight: 8 × 1024 × 4096. -/
abbrev SB : Shape := ⟨3, ![8, 1024, 4096]⟩

/-- Row `r` of slab `b`, among 4096 rows cut into four slabs of 1024: row `b · 1024 + r`. -/
def row4 (b : Fin 4) (r : Fin 1024) : Fin 4096 :=
  ⟨b.val * 1024 + r.val, by have := b.isLt; have := r.isLt; omega⟩

theorem row4_val (b : Fin 4) (r : Fin 1024) : (row4 b r).val = b.val * 1024 + r.val := rfl

variable (z : EReal) (X : SA.Idx → EReal) (WI : SB.Idx → EReal) (WO : SA.Idx → EReal)

/-- The hidden activation: the positive part (against `z`) of a token's product with the first weight. -/
def hidden (e : Fin 8) (t f : Fin 4096) : EReal :=
  max (∑ k : Fin 1024, X (ix3 e t k) * WI (ix3 e k f)) z

/-- The layer's value: the hidden activations' product with the second weight. -/
def ffn (e : Fin 8) (t : Fin 4096) (d : Fin 1024) : EReal :=
  ∑ f : Fin 4096, hidden z X WI e t f * WO (ix3 e f d)

/-- The contribution of slab `b` of the hidden features. -/
def part (e : Fin 8) (t : Fin 4096) (d : Fin 1024) (b : Fin 4) : EReal :=
  ∑ f : Fin 1024, hidden z X WI e t (row4 b f) * WO (ix3 e (row4 b f) d)

/-- A sum over 4096 indices, taken slab by slab. -/
theorem sum_slabs {M : Type*} [AddCommMonoid M] (g : Fin 4096 → M) :
    ∑ f : Fin 4096, g f = ∑ b : Fin 4, ∑ f : Fin 1024, g (row4 b f) := by
  rw [← Fintype.sum_prod_type (f := fun p : Fin 4 × Fin 1024 => g (row4 p.1 p.2))]
  refine (Fintype.sum_equiv (finProdFinEquiv : Fin 4 × Fin 1024 ≃ Fin 4096) _ _ fun p => ?_).symm
  congr 1
  apply Fin.ext
  show p.1.val * 1024 + p.2.val = p.2.val + 1024 * p.1.val
  omega

/-- The layer's value is the sum of the four slabs' contributions. -/
theorem ffn_eq_parts (e : Fin 8) (t : Fin 4096) (d : Fin 1024) :
    ffn z X WI WO e t d = ∑ b : Fin 4, part z X WI WO e t d b := by
  unfold ffn part
  exact sum_slabs _

/-- The layer's value as one array. -/
def out (j : SA.Idx) : EReal := ffn z X WI WO (j 0) (j 1) (j 2)

theorem out_ix3 (e : Fin 8) (t : Fin 4096) (d : Fin 1024) : out z X WI WO (ix3 e t d) = ffn z X WI WO e t d := rfl

/-! ## The schedule -/

/-- The expert of step `n`. -/
def eOf (n : ℕ) : Fin 8 := ⟨n / 16 % 8, Nat.mod_lt _ (by decide)⟩
/-- The token tile of step `n`. -/
def iOf (n : ℕ) : Fin 4 := ⟨n / 4 % 4, Nat.mod_lt _ (by decide)⟩
/-- The slab of step `n`. -/
def bOf (n : ℕ) : Fin 4 := ⟨n % 4, Nat.mod_lt _ (by decide)⟩

/-- What the accumulator holds after step `n`, at row `r` of the step's token tile: the contributions of the slabs up to
    the step's own. -/
def accAt (n : ℕ) (r d : Fin 1024) : EReal :=
  ∑ b : Fin 4, if b.val ≤ n % 4 then part z X WI WO (eOf n) (row4 (iOf n) r) d b else 0

/-- At a first slab the accumulator is reset to zero and receives the slab's contribution. -/
theorem accAt_reset (hz : z = 0) (n : ℕ) (h : n % 4 = 0) (r d : Fin 1024) :
    z + part z X WI WO (eOf n) (row4 (iOf n) r) d (bOf n) = accAt z X WI WO n r d := by
  have hb : bOf n = 0 := Fin.ext (by show n % 4 = 0; exact h)
  unfold accAt
  rw [hb, hz, zero_add, Fin.sum_univ_four, h]
  simp

/-- At a later slab it keeps what the step before left and receives the slab's contribution. -/
theorem accAt_step (n : ℕ) (h : n % 4 ≠ 0) (r d : Fin 1024) :
    accAt z X WI WO (n - 1) r d + part z X WI WO (eOf n) (row4 (iOf n) r) d (bOf n) = accAt z X WI WO n r d := by
  have he : eOf (n - 1) = eOf n := Fin.ext (by show (n - 1) / 16 % 8 = n / 16 % 8; omega)
  have hi : iOf (n - 1) = iOf n := Fin.ext (by show (n - 1) / 4 % 4 = n / 4 % 4; omega)
  unfold accAt
  rw [he, hi]
  generalize part z X WI WO (eOf n) (row4 (iOf n) r) d = p
  have hcase : n % 4 = 1 ∨ n % 4 = 2 ∨ n % 4 = 3 := by omega
  rcases hcase with hb | hb | hb
  · have h1 : (n - 1) % 4 = 0 := by omega
    have hbo : bOf n = 1 := Fin.ext (by show n % 4 = 1; exact hb)
    rw [hbo, Fin.sum_univ_four, Fin.sum_univ_four, h1, hb]
    simp
  · have h1 : (n - 1) % 4 = 1 := by omega
    have hbo : bOf n = 2 := Fin.ext (by show n % 4 = 2; exact hb)
    rw [hbo, Fin.sum_univ_four, Fin.sum_univ_four, h1, hb]
    simp
  · have h1 : (n - 1) % 4 = 2 := by omega
    have hbo : bOf n = 3 := Fin.ext (by show n % 4 = 3; exact hb)
    rw [hbo, Fin.sum_univ_four, Fin.sum_univ_four, h1, hb]
    simp

/-- After a last slab the accumulator holds the layer's value on the step's tile. -/
theorem accAt_last (n : ℕ) (h : n % 4 = 3) (r d : Fin 1024) :
    accAt z X WI WO n r d = ffn z X WI WO (eOf n) (row4 (iOf n) r) d := by
  rw [ffn_eq_parts]
  unfold accAt
  refine Finset.sum_congr rfl fun b _ => ?_
  rw [if_pos (by rw [h]; have := b.isLt; omega)]

end Cert.Ffn

end
-- ==== Proof.RefRead.lean ====
/-
  The reference at the ideal instance, read entry by entry.

  The reference regroups the tokens by expert (a row-major recast 32768 × 1024 → 8 × 4096 × 1024), multiplies each
  expert's tokens by its first weight, takes the positive part against a zero splat, multiplies by the second weight, and
  recasts the result back to 32768 × 1024. Its value before the last recast is therefore the layer's value
  `Cert.Ffn.out` of the regrouped tokens and the two weights: at (e, t, d) both are
      ∑ f, max (∑ k, X (e, t, k) · WI (e, k, f)) 0 · WO (e, f, d).
-/
import proofs.«162339_j86294482911902_2_alg».proof.Defs
import proofs.«162339_j86294482911902_2_alg».proof.Proof.Gen.ReferenceIdeal.Run
import proofs.«162339_j86294482911902_2_alg».proof.Proof.Gen.ReferenceIdeal.Read
import proofs.«162339_j86294482911902_2_alg».proof.Proof.Spec
import Idealize.ShloMosaic.Lib.ValueIdx
import Idealize.ShloMosaic.Lib.Pipeline.Value
import Idealize.ShloMosaic.PureOps.Ideal.Laws

noncomputable section

namespace Cert.RefRead

open Cert.ReferenceIdeal Cert.ReferenceIdeal.Read Idealize.ShloMosaic Idealize.ShloMosaic.ValueIdx Idealize.SL.Sem
open scoped BigOperators

/-- The zero word the reference's positive part is taken against. -/
abbrev zeroW : EReal := Ideal.ofBits .f32 0x00000000#32

/-- Before its last recast the reference holds the layer's value of the regrouped tokens and the two weights. -/
theorem stage3_eq (x0 : (⟨S32768x1024, .f32⟩ : BufTy).Contents (Elt Ideal)) (x1 : (⟨S8x1024x4096, .f32⟩ : BufTy).Contents (Elt Ideal))
    (x2 : (⟨S8x4096x1024, .f32⟩ : BufTy).Contents (Elt Ideal)) :
    val_main_v3 (F := Ideal) x0 x1 x2 = Cert.Ffn.out zeroW (val_main_v0 (F := Ideal) x0) x1 x2 := by
  funext j
  obtain ⟨e, t, d, rfl⟩ : ∃ (e : Fin 8) (t : Fin 4096) (d : Fin 1024), j = ix3 e t d := ⟨j 0, j 1, j 2, eq_ix3 j⟩
  rw [val_main_v3_apply, Cert.Ffn.out_ix3]
  unfold Cert.Ffn.ffn
  refine Finset.sum_congr rfl fun f _ => ?_
  have el : lidx_main_v3 (ix3 e t d) f = ix3 e t f :=
    funext fun a => Fin.ext (by match a with | ⟨0, _⟩ => rfl | ⟨1, _⟩ => rfl | ⟨2, _⟩ => rfl)
  have er : ridx_main_v3 (ix3 e t d) f = ix3 e f d :=
    funext fun a => Fin.ext (by match a with | ⟨0, _⟩ => rfl | ⟨1, _⟩ => rfl | ⟨2, _⟩ => rfl)
  rw [el, er, val_main_v2_apply, val_main_v1_apply, val_main_call0_v0_apply, val_main_call0_cst_apply]
  unfold Cert.Ffn.hidden
  refine congrArg (· * x2 (ix3 e f d)) ?_
  refine congrArg (max · zeroW) ?_
  refine Finset.sum_congr rfl fun k _ => ?_
  have el1 : lidx_main_v1 (ix3 e t f) k = ix3 e t k :=
    funext fun a => Fin.ext (by match a with | ⟨0, _⟩ => rfl | ⟨1, _⟩ => rfl | ⟨2, _⟩ => rfl)
  have er1 : ridx_main_v1 (ix3 e t f) k = ix3 e k f :=
    funext fun a => Fin.ext (by match a with | ⟨0, _⟩ => rfl | ⟨1, _⟩ => rfl | ⟨2, _⟩ => rfl)
  rw [el1, er1]

/-- So the reference's result is the last recast of that value. -/
theorem result_eq (x0 : (⟨S32768x1024, .f32⟩ : BufTy).Contents (Elt Ideal)) (x1 : (⟨S8x1024x4096, .f32⟩ : BufTy).Contents (Elt Ideal))
    (x2 : (⟨S8x4096x1024, .f32⟩ : BufTy).Contents (Elt Ideal)) :
    val_main_v4 (F := Ideal) x0 x1 x2
      = shapeCast S32768x1024 (Cert.Ffn.out zeroW (shapeCast S8x4096x1024 x0 Facts₀.shapeCasts_S32768x1024_S8x4096x1024) x1 x2)
          Facts₀.shapeCasts_S8x4096x1024_S32768x1024 := by
  unfold val_main_v4
  rw [stage3_eq]
  rfl

end Cert.RefRead

end
-- ==== Proof.Blocks.lean ====
/-
  The arrays the kernel's region finds, and the blocks its windows read from them.

  Before the region the host regroups the tokens by expert (a row-major recast 32768 × 1024 → 8 × 4096 × 1024) and
  changes the format of the tokens and of both weights; the region's three input arrays are those results.
  The grid is 8 × 4 × 4, row-major: step `n` is (expert n / 16, token tile n / 4 mod 4, slab n mod 4). At that step
    the token window reads rows  tile · 1024 + r  of the expert's tokens,
    the first-weight window reads columns  slab · 1024 + f  of the expert's first weight,
    the second-weight window reads rows  slab · 1024 + f  of the expert's second weight,
  and the output window addresses the same rows as the token window: an element of a block sits at
  block index × block size + its coordinate inside the block, on every axis.
-/
import proofs.«162339_j86294482911902_2_alg».proof.Proof.Gen.KernelIdeal.Frame.Runs
import proofs.«162339_j86294482911902_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.Ffn
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The index maps over the grid -/

theorem idx_x : ∀ t : Fin cfg0.N, win0_0.index t (0 : Fin 3) = t.val / 16 % 8 ∧ win0_0.index t (1 : Fin 3) = t.val / 4 % 4 ∧ win0_0.index t (2 : Fin 3) = 0 :=
  (by decide +kernel : ∀ t : Fin grid0.N, win0_0.index t (0 : Fin 3) = t.val / 16 % 8 ∧ win0_0.index t (1 : Fin 3) = t.val / 4 % 4 ∧ win0_0.index t (2 : Fin 3) = 0)
theorem idx_wi : ∀ t : Fin cfg0.N, win0_1.index t (0 : Fin 3) = t.val / 16 % 8 ∧ win0_1.index t (1 : Fin 3) = 0 ∧ win0_1.index t (2 : Fin 3) = t.val % 4 :=
  (by decide +kernel : ∀ t : Fin grid0.N, win0_1.index t (0 : Fin 3) = t.val / 16 % 8 ∧ win0_1.index t (1 : Fin 3) = 0 ∧ win0_1.index t (2 : Fin 3) = t.val % 4)
theorem idx_wo : ∀ t : Fin cfg0.N, win0_2.index t (0 : Fin 3) = t.val / 16 % 8 ∧ win0_2.index t (1 : Fin 3) = t.val % 4 ∧ win0_2.index t (2 : Fin 3) = 0 :=
  (by decide +kernel : ∀ t : Fin grid0.N, win0_2.index t (0 : Fin 3) = t.val / 16 % 8 ∧ win0_2.index t (1 : Fin 3) = t.val % 4 ∧ win0_2.index t (2 : Fin 3) = 0)
theorem idx_out : ∀ t : Fin cfg0.N, win0_3.index t (0 : Fin 3) = t.val / 16 % 8 ∧ win0_3.index t (1 : Fin 3) = t.val / 4 % 4 ∧ win0_3.index t (2 : Fin 3) = 0 :=
  (by decide +kernel : ∀ t : Fin grid0.N, win0_3.index t (0 : Fin 3) = t.val / 16 % 8 ∧ win0_3.index t (1 : Fin 3) = t.val / 4 % 4 ∧ win0_3.index t (2 : Fin 3) = 0)

/-! ## The blocks read at an index -/

/-- The token window's block at step `t`: row `r` of the block is row `tile · 1024 + r` of the expert's tokens. -/
theorem xblk_apply (c : Dev nD) (t : Fin cfg0.N) (r k : Fin 1024) :
    (iblk m c 0 t : Vec F S1x1024x1024 .bf16) (ix3 0 r k) = V m c main_v1 (ix3 (eOf t.val) (row4 (iOf t.val) r) k) := by
  unfold iblk
  rw [View.read_apply]
  show V m c main_v1 _ = V m c main_v1 _
  refine congrArg (V m c main_v1) (funext fun a => Fin.ext ?_)
  obtain ⟨i0, i1, i2⟩ := idx_x t
  match a with
  | ⟨0, _⟩ => show win0_0.index t 0 * 1 + 1 * 0 = t.val / 16 % 8; rw [i0]; omega
  | ⟨1, _⟩ => show win0_0.index t 1 * 1024 + 1 * r.val = t.val / 4 % 4 * 1024 + r.val; rw [i1]; omega
  | ⟨2, _⟩ => show win0_0.index t 2 * 1024 + 1 * k.val = k.val; rw [i2]; omega

/-- The first-weight window's block at step `t`: column `f` of the block is column `slab · 1024 + f`. -/
theorem wiblk_apply (c : Dev nD) (t : Fin cfg0.N) (k f : Fin 1024) :
    (iblk m c 1 t : Vec F S1x1024x1024 .bf16) (ix3 0 k f) = V m c main_v2 (ix3 (eOf t.val) k (row4 (bOf t.val) f)) := by
  unfold iblk
  rw [View.read_apply]
  show V m c main_v2 _ = V m c main_v2 _
  refine congrArg (V m c main_v2) (funext fun a => Fin.ext ?_)
  obtain ⟨i0, i1, i2⟩ := idx_wi t
  match a with
  | ⟨0, _⟩ => show win0_1.index t 0 * 1 + 1 * 0 = t.val / 16 % 8; rw [i0]; omega
  | ⟨1, _⟩ => show win0_1.index t 1 * 1024 + 1 * k.val = k.val; rw [i1]; omega
  | ⟨2, _⟩ => show win0_1.index t 2 * 1024 + 1 * f.val = t.val % 4 * 1024 + f.val; rw [i2]; omega

/-- The second-weight window's block at step `t`: row `f` of the block is row `slab · 1024 + f`. -/
theorem woblk_apply (c : Dev nD) (t : Fin cfg0.N) (f d : Fin 1024) :
    (iblk m c 2 t : Vec F S1x1024x1024 .bf16) (ix3 0 f d) = V m c main_v3 (ix3 (eOf t.val) (row4 (bOf t.val) f) d) := by
  unfold iblk
  rw [View.read_apply]
  show V m c main_v3 _ = V m c main_v3 _
  refine congrArg (V m c main_v3) (funext fun a => Fin.ext ?_)
  obtain ⟨i0, i1, i2⟩ := idx_wo t
  match a with
  | ⟨0, _⟩ => show win0_2.index t 0 * 1 + 1 * 0 = t.val / 16 % 8; rw [i0]; omega
  | ⟨1, _⟩ => show win0_2.index t 1 * 1024 + 1 * f.val = t.val % 4 * 1024 + f.val; rw [i1]; omega
  | ⟨2, _⟩ => show win0_2.index t 2 * 1024 + 1 * d.val = d.val; rw [i2]; omega

/-! ## The arrays the region finds -/

/-- The tokens as the region finds them: regrouped by expert, then the format change. -/
theorem V_tokens (c : Dev nD) :
    V m c main_v1 = (truncf .bf16 (shapeCast S8x4096x1024 (m ((c : Thread nD τ).loc main_arg0)) Facts₀.shapeCasts_S32768x1024_S8x4096x1024) Facts₀.bitsLt_bf16_f32
      : (⟨S8x4096x1024, .bf16⟩ : BufTy).Contents (Elt F)) := by
  show StableHlo.after hostOps0 (fun b => m (c, b)) (Proc.devRef .tc main_v1) = _
  after_results
  all_goals rfl

/-- The first weight as the region finds it: the format change of the argument. -/
theorem V_wi (c : Dev nD) :
    V m c main_v2 = (truncf .bf16 (m ((c : Thread nD τ).loc main_arg1)) Facts₀.bitsLt_bf16_f32
      : (⟨S8x1024x4096, .bf16⟩ : BufTy).Contents (Elt F)) := by
  show StableHlo.after hostOps0 (fun b => m (c, b)) (Proc.devRef .tc main_v2) = _
  after_results
  all_goals rfl

/-- The second weight as the region finds it: the format change of the argument. -/
theorem V_wo (c : Dev nD) :
    V m c main_v3 = (truncf .bf16 (m ((c : Thread nD τ).loc main_arg2)) Facts₀.bitsLt_bf16_f32
      : (⟨S8x4096x1024, .bf16⟩ : BufTy).Contents (Elt F)) := by
  show StableHlo.after hostOps0 (fun b => m (c, b)) (Proc.devRef .tc main_v3) = _
  after_results
  all_goals rfl

end Cert.KernelIdeal.Blocks

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.Payload.lean ====
/-
  The kernel body's three stored values, read entry by entry at the ideal instance.

  The body keeps a 1024 × 1024 accumulator. Its first store (taken only at a first slab) fills the accumulator with the
  zero word. Its second store adds to the accumulator the product of the positive part of (token tile × first-weight
  block) with the second-weight block: at (r, d),
      acc (r, d) + ∑ f, max (∑ k, x (r, k) · wi (k, f)) 0 · wo (f, d).
  Its third store copies the accumulator into the output block. The changes of float format in between are the
  identity on extended reals, and both products are plain contractions into a zero splat.
-/
import proofs.«162339_j86294482911902_2_alg».proof.Proof.Gen.KernelIdeal.Skeleton
import proofs.«162339_j86294482911902_2_alg».proof.Proof.LibSplit
import Idealize.ShloMosaic.Lib.ValueLayout
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-- The zero word, as the body and the reference both spell it. -/
abbrev zeroW : EReal := Ideal.ofBits .f32 0x00000000#32

/-- The contraction the body's two products use is the plain one of 1024 × 1024 by 1024 × 1024. -/
theorem dot_plain : dot_S1024x1024_S1024x1024_S1024x1024_1_0_0_1_n_n = DotDims.plain 1024 1024 1024 := rfl

/-- The reset fills the accumulator with the zero word. -/
theorem pay1_apply (j : S1024x1024.Idx) : k0_pay1 (F := Ideal) j = zeroW := by
  unfold k0_pay1
  rw [shapeCast_self]
  rfl

/-- The accumulation: what was there plus the slab's contribution on this tile. -/
theorem pay2_apply (x0 x1 x2 : FVec Ideal S1x1024x1024 .bf16) (acc : FVec Ideal S1024x1024 .f32) (r d : Fin 1024) :
    k0_pay2 (F := Ideal) x0 x1 x2 acc (ix2 r d)
      = acc (ix2 r d) + ∑ f : Fin 1024, max (∑ k : Fin 1024, x0 (ix3 0 r k) * x1 (ix3 0 k f)) zeroW * x2 (ix3 0 f d) := by
  unfold k0_pay2
  rw [shapeCast_self]
  refine congrArg (acc (ix2 r d) + ·) ?_
  refine (Cert.Bridge.Split.matmul_zero_plain_apply _ dot_plain _ _ r d).trans ?_
  refine Finset.sum_congr rfl fun f _ => ?_
  refine congrArg₂ (· * ·) ?_ (ValueIdx.shapeCast_1ab_ab_apply x2 _ f d)
  refine congrArg (max · zeroW) ?_
  refine (Cert.Bridge.Split.matmul_zero_plain_apply _ dot_plain _ _ r f).trans ?_
  refine Finset.sum_congr rfl fun k _ => ?_
  exact congrArg₂ (· * ·) (ValueIdx.shapeCast_1ab_ab_apply x0 _ r k) (ValueIdx.shapeCast_1ab_ab_apply x1 _ k f)

/-- The copy-out: the output block holds the accumulator. -/
theorem pay3_apply (acc : FVec Ideal S1024x1024 .f32) (u : Fin 1) (r d : Fin 1024) :
    k0_pay3 (F := Ideal) acc (ix3 u r d) = acc (ix2 r d) := by
  unfold k0_pay3
  exact ValueIdx.shapeCast_ab_1ab_apply acc _ u r d

end Cert.KernelIdeal.Payload

end
-- ==== Proof.LibReadBack.lean ====
/-
  A load of a whole buffer after stores into it.

  For any element type, shape and view: when the last of a list of stores went through the whole-shape rectangle at
  zero offsets (however the zeros are spelt), a load through that same rectangle reads that store's payload, whatever the
  earlier stores were. (The library has the case of exactly one store; this is the case of one store followed by any
  earlier ones, as when an accumulator is filled, then overwritten, then read back.)
-/
import Idealize.ShloMosaic.Lib.Pipeline.Value

noncomputable section

namespace Cert.Bridge.ReadBack

open Idealize.ShloMosaic

/-- A load of the whole buffer, after stores the last of which covered the whole buffer, reads that store's payload. -/
theorem readCov_cons_unit_zero {Val : EltTy → Type} {S : Shape} {e : EltTy} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.Bridge.ReadBack

end
-- ==== Proof.Pieces.lean ====
/-
  What one step of the body leaves behind, as values.

  The body has two cases. At a first slab it fills the accumulator with the zero word, then adds the slab's contribution
  and copies the accumulator to the output block; at a later slab it adds the slab's contribution to what the step
  before left in the accumulator, and copies likewise. Every load and store goes through the whole buffer, so what each
  buffer ends holding is the payload of the last store into it, with each load read as what was stored before it:
    first slab : accumulator = acc₂ (x, wi, wo, zero block),   output = copy of that;
    later slab : accumulator = acc₂ (x, wi, wo, previous),     output = copy of that.
  Stated for any float values.
-/
import proofs.«162339_j86294482911902_2_alg».proof.Proof.Gen.KernelIdeal.Frame
import proofs.«162339_j86294482911902_2_alg».proof.Proof.LibReadBack
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First slab: the accumulator ends at the contribution added to the zero block. -/
theorem acc_first (c : Dev nD) (i : grid0.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc : cond0_0 i)
    (x0 x1 x2 : Vec F S1x1024x1024 .bf16) :
    sout0_A_0 c i a3 h3 a4 h4 a5 h5 a6 h6 a7 h7 hc x0 x1 x2 = k0_pay2 x0 x1 x2 k0_pay1 := by
  unfold sout0_A_0
  rw [View.read_writes_eq_canon _ _ _ (scover0_A_0 c i a3 h3 a4 h4 a5 h5 a6 h6 a7 h7 hc x0 x1 x2)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, View.ld_unit_zero (S := S1x1024x1024) hz3]

/-- First slab: the output block ends at a copy of the accumulator. -/
theorem out_first (c : Dev nD) (i : grid0.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc : cond0_0 i)
    (x0 x1 x2 : Vec F S1x1024x1024 .bf16) :
    out0_A_3 c i a3 h3 a4 h4 a5 h5 a6 h6 a7 h7 hc x0 x1 x2 = k0_pay3 (k0_pay2 x0 x1 x2 k0_pay1) := by
  unfold out0_A_3
  rw [View.read_writes_eq_canon _ _ _ (cover0_A_3 c i a3 h3 a4 h4 a5 h5 a6 h6 a7 h7 hc x0 x1 x2)]
  unfold kernelRun0_A
  dsimp only
  sl_unfold_words
  rw [View.canon_unit_zero (S := S1x1024x1024) hz3, Cert.Bridge.ReadBack.readCov_cons_unit_zero (S := S1024x1024) _ hz2,
    View.readCov_unit_zero (S := S1024x1024) _ hz2]
  simp only [View.readAt_eq_ld, h3.read_unread, h4.read_unread, h5.read_unread, View.ld_unit_zero (S := S1x1024x1024) hz3]

/-- Later slab: the accumulator ends at the contribution added to what the step before left. -/
theorem acc_later (c : Dev nD) (i : grid0.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc : ¬cond0_0 i)
    (x0 x1 x2 : Vec F S1x1024x1024 .bf16) (xs0 : Vec F S1024x1024 .f32) :
    sout0_B_0 c i a3 h3 a4 h4 a5 h5 a6 h6 a7 h7 hc x0 x1 x2 xs0 = k0_pay2 x0 x1 x2 xs0 := by
  unfold sout0_B_0
  rw [View.read_writes_eq_canon _ _ _ (scover0_B_0 c i a3 h3 a4 h4 a5 h5 a6 h6 a7 h7 hc x0 x1 x2 xs0)]
  unfold kernelRun0_B
  dsimp only
  sl_unfold_words
  rw [View.canon_unit_zero (S := S1024x1024) hz2]
  simp only [View.readAt_eq_ld, h3.read_unread, h4.read_unread, h5.read_unread, h7.read_unread,
    View.ld_unit_zero (S := S1x1024x1024) hz3, View.ld_unit_zero (S := S1024x1024) hz2]

/-- Later slab: the output block ends at a copy of the accumulator. -/
theorem out_later (c : Dev nD) (i : grid0.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc : ¬cond0_0 i)
    (x0 x1 x2 : Vec F S1x1024x1024 .bf16) (xs0 : Vec F S1024x1024 .f32) :
    out0_B_3 c i a3 h3 a4 h4 a5 h5 a6 h6 a7 h7 hc x0 x1 x2 xs0 = k0_pay3 (k0_pay2 x0 x1 x2 xs0) := by
  unfold out0_B_3
  rw [View.read_writes_eq_canon _ _ _ (cover0_B_3 c i a3 h3 a4 h4 a5 h5 a6 h6 a7 h7 hc x0 x1 x2 xs0)]
  unfold kernelRun0_B
  dsimp only
  sl_unfold_words
  rw [View.canon_unit_zero (S := S1x1024x1024) hz3, View.readCov_unit_zero (S := S1024x1024) _ hz2]
  simp only [View.readAt_eq_ld, h3.read_unread, h4.read_unread, h5.read_unread, h7.read_unread,
    View.ld_unit_zero (S := S1x1024x1024) hz3, View.ld_unit_zero (S := S1024x1024) hz2]

end Cert.KernelIdeal.Pieces

end
-- ==== Proof.Accum.lean ====
/-
  The accumulator, step by step, at the ideal instance.

  One step adds to the accumulator the contribution of the step's slab on the step's token tile: the body's second
  store read at (r, d), with its three input blocks read where their windows place them, is
      acc (r, d) + part (expert, tile · 1024 + r, d, slab).
  By induction on the step the accumulator after step `n` is `Cert.Ffn.accAt n` — a first slab starts from the zero
  block, a later slab from what the step before left — and the output block after a step is a copy of it.
-/
import proofs.«162339_j86294482911902_2_alg».proof.Proof.Gen.KernelIdeal.Frame
import proofs.«162339_j86294482911902_2_alg».proof.Proof.Spec
import proofs.«162339_j86294482911902_2_alg».proof.Proof.Payload
import proofs.«162339_j86294482911902_2_alg».proof.Proof.Pieces
import proofs.«162339_j86294482911902_2_alg».proof.Proof.Blocks

noncomputable section

namespace Cert.KernelIdeal.Accum

open Cert.KernelIdeal Cert.KernelIdeal.Gen Cert.Ffn
open Idealize.ShloMosaic Idealize.ShloMosaic.TcCoe Idealize.SL.Sem Idealize.ShloMosaic.ValueIdx
open Cert.KernelIdeal.Payload (zeroW)
open scoped BigOperators

variable (m : (ℓ : Loc nD τ sig) → Buf (Elt Ideal) ℓ)

/-- The tokens, grouped by expert, as the region finds them. -/
abbrev X (c : Dev nD) : SA.Idx → EReal := V m c main_v1
/-- The first weight as the region finds it. -/
abbrev WI (c : Dev nD) : SB.Idx → EReal := V m c main_v2
/-- The second weight as the region finds it. -/
abbrev WO (c : Dev nD) : SA.Idx → EReal := V m c main_v3

/-- The zero word is the real number zero. -/
theorem zeroW_eq : zeroW = 0 := Ideal.ofBits_zero_f32

/-- One step: the accumulator receives the step's slab's contribution on the step's tile. -/
theorem step_apply (c : Dev nD) (t : Fin cfg0.N) (acc : FVec Ideal S1024x1024 .f32) (r d : Fin 1024) :
    k0_pay2 (F := Ideal) (iblk m c 0 t) (iblk m c 1 t) (iblk m c 2 t) acc (ix2 r d)
      = acc (ix2 r d) + part zeroW (X m c) (WI m c) (WO m c) (eOf t.val) (row4 (iOf t.val) r) d (bOf t.val) := by
  refine (Payload.pay2_apply (iblk m c 0 t) (iblk m c 1 t) (iblk m c 2 t) acc r d).trans ?_
  refine congrArg (acc (ix2 r d) + ·) ?_
  unfold Cert.Ffn.part Cert.Ffn.hidden
  refine Finset.sum_congr rfl fun f _ => ?_
  exact congrArg₂ (· * ·)
    (congrArg (max · zeroW) (Finset.sum_congr rfl fun k _ =>
      congrArg₂ (· * ·) (Blocks.xblk_apply m c t r k) (Blocks.wiblk_apply m c t k f)))
    (Blocks.woblk_apply m c t f d)

/-- The accumulator after step `n`. -/
theorem acc_eq (c : Dev nD) : ∀ (n : ℕ) (h : n < cfg0.N) (r d : Fin 1024),
    (outsAt0 m c n h).2 (ix2 r d) = accAt zeroW (X m c) (WI m c) (WO m c) n r d
  | 0, h, r, d => by
    rw [outsAt0_A m c ⟨0, h⟩ rfl]
    dsimp only
    rw [Pieces.acc_first]
    refine (step_apply m c ⟨0, h⟩ _ r d).trans ?_
    rw [Payload.pay1_apply]
    exact accAt_reset zeroW _ _ _ zeroW_eq 0 rfl r d
  | n + 1, h, r, d => by
    by_cases h0 : (n + 1) % 4 = 0
    · rw [outsAt0_A m c ⟨n + 1, h⟩ h0]
      dsimp only
      rw [Pieces.acc_first]
      refine (step_apply m c ⟨n + 1, h⟩ _ r d).trans ?_
      rw [Payload.pay1_apply]
      exact accAt_reset zeroW _ _ _ zeroW_eq (n + 1) h0 r d
    · rw [outsAt0_B m c ⟨n + 1, h⟩ h0]
      dsimp only
      rw [Pieces.acc_later]
      refine (step_apply m c ⟨n + 1, h⟩ _ r d).trans ?_
      show (outsAt0 m c n _).2 (ix2 r d) + _ = _
      rw [acc_eq c n _ r d]
      exact accAt_step zeroW _ _ _ (n + 1) h0 r d

/-- The output block after a step is a copy of the accumulator. -/
theorem out_eq_copy (c : Dev nD) (t : Fin cfg0.N) :
    (outsAt0 m c t.val t.isLt).1 = k0_pay3 (outsAt0 m c t.val t.isLt).2 := by
  by_cases h0 : t.val % 4 = 0
  · rw [outsAt0_A m c t h0]
    dsimp only
    rw [Pieces.out_first, Pieces.acc_first]
  · rw [outsAt0_B m c t h0]
    dsimp only
    rw [Pieces.out_later, Pieces.acc_later]

/-- The output block after a last slab holds the layer's value on the step's tile. -/
theorem out_last (c : Dev nD) (t : Fin cfg0.N) (h3 : t.val % 4 = 3) (u : Fin 1) (r d : Fin 1024) :
    (outsAt0 m c t.val t.isLt).1 (ix3 u r d)
      = ffn zeroW (X m c) (WI m c) (WO m c) (eOf t.val) (row4 (iOf t.val) r) d := by
  rw [out_eq_copy]
  refine (Payload.pay3_apply _ u r d).trans ?_
  rw [acc_eq m c t.val t.isLt r d]
  exact accAt_last zeroW _ _ _ t.val h3 r d

end Cert.KernelIdeal.Accum

end
-- ==== Proof.Final.lean ====
/-
  The kernel's result array at the ideal instance.

  The output window is written back after each last slab (steps ≡ 3 mod 4), and by then its block holds the layer's
  value on the step's (expert, token tile): block (e, i) of the 8 × 4096 × 1024 output array is rows
  i · 1024 … i · 1024 + 1023 of expert e. The 32 written-back blocks tile the array — row (e, t) lies in the block of
  step e · 16 + (t / 1024) · 4 + 3 — so after the region the array is `Cert.Ffn.out` of the three arrays the region
  found. The one host operation after the region recasts it row-major to 32768 × 1024, which is the kernel's result.
-/
import proofs.«162339_j86294482911902_2_alg».proof.Proof.Gen.KernelIdeal.Frame
import proofs.«162339_j86294482911902_2_alg».proof.Proof.Spec
import proofs.«162339_j86294482911902_2_alg».proof.Proof.Blocks
import proofs.«162339_j86294482911902_2_alg».proof.Proof.Accum
import Idealize.ShloMosaic.Lib.Pipeline.Value
import Idealize.ShloMosaic.Lib.StableHlo.Run

noncomputable section

namespace Cert.KernelIdeal.Final

open Cert.KernelIdeal Cert.KernelIdeal.Gen Cert.Ffn
open Idealize.ShloMosaic Idealize.ShloMosaic.TcCoe Idealize.SL.Sem Idealize.ShloMosaic.ValueIdx
open Idealize.ShloMosaic.Pipeline (Dat)
open Cert.KernelIdeal.Payload (zeroW)
open Cert.KernelIdeal.Accum (X WI WO)

variable (m : (ℓ : Loc nD τ sig) → Buf (Elt Ideal) ℓ) (ρ : Dev nD → PrngReg)

/-- The layer's value of the arrays the region finds, as contents of the output array. -/
abbrev G (c : Dev nD) : Buf (Elt Ideal) ((c : Thread nD τ).loc main_v4) := Cert.Ffn.out zeroW (X m c) (WI m c) (WO m c)

/-- Where an element of the output block of step `t` sits in the output array. -/
theorem out_emb (t : Fin cfg0.N) (u : Fin 1) (r d : Fin 1024) :
    ((cfg0.win 3).blk t).view.emb (ix3 u r d) = ix3 (eOf t.val) (row4 (iOf t.val) r) d := by
  obtain ⟨i0, i1, i2⟩ := Blocks.idx_out t
  funext a
  apply Fin.ext
  match a with
  | ⟨0, _⟩ => show win0_3.index t 0 * 1 + 1 * u.val = t.val / 16 % 8; rw [i0]; omega
  | ⟨1, _⟩ => show win0_3.index t 1 * 1024 + 1 * r.val = t.val / 4 % 4 * 1024 + r.val; rw [i1]; omega
  | ⟨2, _⟩ => show win0_3.index t 2 * 1024 + 1 * d.val = d.val; rw [i2]; omega

/-- What a write-back writes is the block of the layer's value. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  show (cfg0.win 3).cut (grid0.coords t) ((dats m 0 c).after 3 t) = _
  rw [after0_3]
  funext y
  obtain ⟨u, r, d, rfl⟩ : ∃ (u : Fin 1) (r d : Fin 1024), y = ix3 u r d := ⟨y 0, y 1, y 2, eq_ix3 y⟩
  show (outsAt0 m c t.val t.isLt).1 (ix3 u r d) = G m c (((cfg0.win 3).blk t).view.emb (ix3 u r d))
  rw [Accum.out_last m c t h3 u r d, out_emb t u r d]
  rfl

/-- Every entry of the output array lies in some written-back block. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have b0 : (i 0).val < 8 := (i 0).isLt
  have b1 : (i 1).val < 4096 := (i 1).isLt
  have b2 : (i 2).val < 1024 := (i 2).isLt
  obtain ⟨n, hn⟩ : ∃ n, n = (i 0).val * 16 + (i 1).val / 1024 * 4 + 3 := ⟨_, rfl⟩
  have hN : n < cfg0.N := by rw [show cfg0.N = 128 from N_0]; omega
  refine ⟨⟨n, hN⟩, (flush0_3 _).mpr (by show n % 4 = 3; omega), ?_⟩
  show i ∈ ((View.whole main_v4).slice (win0_3.rect ⟨n, hN⟩)).set
  rw [View.set_slice_whole, Rect.mem_set_unit]
  obtain ⟨i0, i1, i2⟩ := Blocks.idx_out ⟨n, hN⟩
  intro a
  match a with
  | ⟨0, _⟩ =>
    show win0_3.index ⟨n, hN⟩ 0 * 1 ≤ (i 0).val ∧ (i 0).val < win0_3.index ⟨n, hN⟩ 0 * 1 + 1
    rw [i0]; show n / 16 % 8 * 1 ≤ (i 0).val ∧ (i 0).val < n / 16 % 8 * 1 + 1; omega
  | ⟨1, _⟩ =>
    show win0_3.index ⟨n, hN⟩ 1 * 1024 ≤ (i 1).val ∧ (i 1).val < win0_3.index ⟨n, hN⟩ 1 * 1024 + 1024
    rw [i1]; show n / 4 % 4 * 1024 ≤ (i 1).val ∧ (i 1).val < n / 4 % 4 * 1024 + 1024; omega
  | ⟨2, _⟩ =>
    show win0_3.index ⟨n, hN⟩ 2 * 1024 ≤ (i 2).val ∧ (i 2).val < win0_3.index ⟨n, hN⟩ 2 * 1024 + 1024
    rw [i2]; omega

/-- So the output array ends holding the layer's value. -/
theorem final (c : Dev nD) : (dats m 0 c).arrAt 3 cfg0.N = G m c :=
  (dats m 0 c).arrAt_eq_of_cover 3 (G m c) (flushed_eq m c) (cover c)

/-- The kernel's result: the row-major recast of the layer's value to 32768 × 1024. -/
def result (c : Dev nD) : Buf (Elt Ideal) ((c : Thread nD τ).loc main_v5) :=
  shapeCast S32768x1024 (G m c) Facts₀.shapeCasts_S8x4096x1024_S32768x1024

/-- The host operation after the region writes it. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4) = G m c :=
    (Pipeline.withArrays_arr spec0 launch0.win.arr_inj c _ _ 3).trans (final m c)
  rw [hA]
  rfl

/-- The kernel's run, read: the result at the recast of the layer's value, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result in terms of the argument arrays: the changes of float format before the region are the identity on
    extended reals, so the region's three arrays are the regrouped tokens and the two weights themselves. -/
theorem result_eq (c : Dev nD) :
    result m c = shapeCast S32768x1024
      (Cert.Ffn.out zeroW
        (shapeCast S8x4096x1024 (m ((c : Thread nD τ).loc main_arg0)) Facts₀.shapeCasts_S32768x1024_S8x4096x1024)
        (m ((c : Thread nD τ).loc main_arg1)) (m ((c : Thread nD τ).loc main_arg2)))
      Facts₀.shapeCasts_S8x4096x1024_S32768x1024 := by
  unfold result
  show shapeCast S32768x1024 (Cert.Ffn.out zeroW (V m c main_v1) (V m c main_v2) (V m c main_v3)) _ = _
  rw [Blocks.V_tokens m c, Blocks.V_wi m c, Blocks.V_wo m c]
  rfl

end Cert.KernelIdeal.Final

end
-- ==== Proof.lean ====
/-
  An expert feed-forward layer, eight experts of 4096 tokens each:  out_e = relu (x_e · wi_e) · wo_e.

  The kernel walks a grid of (expert, token tile of 1024, slab of 1024 hidden features). At each step it multiplies the
  token tile by the slab's columns of the first weight, takes the positive part, multiplies by the slab's rows of the
  second weight, and adds the product into a 1024 × 1024 accumulator that is reset at each first slab; the output block
  is written back after each last slab. The reference computes both products whole.

  At the ideal instance a change of float format is the identity and every product is an exact sum, so both programs
  compute, at (e, t, d),
      ∑ f < 4096, max (∑ k < 1024, X (e, t, k) · WI (e, k, f)) 0 · WO (e, f, d),
  the kernel with the outer sum taken in four slabs of 1024 starting from zero — a regrouping of one finite sum, which
  needs only that addition is associative and commutative and that zero is neutral. The precondition is never opened.

  * Spec     — the layer as one function, its four slabs, and the accumulator's schedule.
  * RefRead  — the reference's value is that function (of the regrouped tokens and the two weights).
  * Payload  — the body's three stored values read entry by entry.
  * Pieces   — what each of the body's two cases leaves in the accumulator and the output block.
  * Blocks   — the arrays the region finds, and each window's block read from them.
  * Accum    — the accumulator after every step, by induction on the step.
  * Final    — the written-back blocks tile the output array; the last recast; the kernel's run.
  The three frames are the generated ones (the reference's is its run with the result dropped), and the ideal pass
  rewrote nothing, so the idealization claim is trivial.
-/
import proofs.«162339_j86294482911902_2_alg».proof.Defs
import proofs.«162339_j86294482911902_2_alg».proof.Proof.Gen.Kernel
import proofs.«162339_j86294482911902_2_alg».proof.Proof.Gen.Kernel.Skeleton
import proofs.«162339_j86294482911902_2_alg».proof.Proof.Gen.Kernel.Launch
import proofs.«162339_j86294482911902_2_alg».proof.Proof.Gen.Kernel.Points
import proofs.«162339_j86294482911902_2_alg».proof.Proof.Gen.Kernel.Frame
import proofs.«162339_j86294482911902_2_alg».proof.Proof.Gen.KernelIdeal
import proofs.«162339_j86294482911902_2_alg».proof.Proof.Gen.KernelIdeal.Skeleton
import proofs.«162339_j86294482911902_2_alg».proof.Proof.Gen.KernelIdeal.Launch
import proofs.«162339_j86294482911902_2_alg».proof.Proof.Gen.KernelIdeal.Points
import proofs.«162339_j86294482911902_2_alg».proof.Proof.Gen.KernelIdeal.Frame
import proofs.«162339_j86294482911902_2_alg».proof.Proof.Gen.ReferenceIdeal
import proofs.«162339_j86294482911902_2_alg».proof.Proof.Gen.ReferenceIdeal.Run
import proofs.«162339_j86294482911902_2_alg».proof.Proof.Gen.ReferenceIdeal.Read
import proofs.«162339_j86294482911902_2_alg».proof.Proof.Gen.Pre_finite_inputs
import proofs.«162339_j86294482911902_2_alg».proof.Proof.RefRead
import proofs.«162339_j86294482911902_2_alg».proof.Proof.Final
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The two idealized programs end with the same result: the last recast of the layer's value of the regrouped tokens
    and the two weights, which agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.RefRead.result_eq, (hagree c).1, (hagree c).2.1, (hagree c).2.2]
  exact (Cert.KernelIdeal.Final.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
